-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S16 .f32) (main_arg7 : FVec F S16x10 .f32) (main_arg8 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x10 .f32 := Host.absf main_arg7
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x16 .f32) (main_arg6 : FVec F S16 .f32) (main_arg7 : FVec F S16x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S10000x128 : Shape := ⟨2, ![10000, 128]⟩
abbrev S10000x16 : Shape := ⟨2, ![10000, 16]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 138
  | .vmem => 14
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S16x16, .f32⟩
  | 6 => ⟨S16, .f32⟩
  | 7 => ⟨S16x10, .f32⟩
  | 8 => ⟨S10, .f32⟩
  | 9 => ⟨S1x3200000, .i32⟩
  | 10 => ⟨S3200000, .i32⟩
  | 11 => ⟨S1x3200000, .i32⟩
  | 12 => ⟨S3200000, .i32⟩
  | 13 => ⟨S100000x16, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x16, .f32⟩
  | 55 => ⟨S3300000x1, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S1x16, .f32⟩
  | 63 => ⟨S100000x16, .f32⟩
  | 64 => ⟨S100000x16, .f32⟩
  | 65 => ⟨S_, .f32⟩
  | 66 => ⟨S100000x16, .f32⟩
  | 67 => ⟨S100000x16, .f32⟩
  | 68 => ⟨S100000x16, .f32⟩
  | 69 => ⟨S100000, .i32⟩
  | 70 => ⟨S3300000, .i32⟩
  | 71 => ⟨S3300000, .i32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x16, .f32⟩
  | 110 => ⟨S3300000x1, .f32⟩
  | 111 => ⟨S3300000x16, .f32⟩
  | 112 => ⟨S3300000x16, .f32⟩
  | 113 => ⟨S_, .f32⟩
  | 114 => ⟨S100000x16, .f32⟩
  | 115 => ⟨S3300000x1, .i32⟩
  | 116 => ⟨S100000x16, .f32⟩
  | 117 => ⟨S1x16, .f32⟩
  | 118 => ⟨S100000x16, .f32⟩
  | 119 => ⟨S100000x16, .f32⟩
  | 120 => ⟨S_, .f32⟩
  | 121 => ⟨S512x16, .f32⟩
  | 122 => ⟨S100000x1, .i32⟩
  | 123 => ⟨S512x16, .f32⟩
  | 124 => ⟨S_, .f32⟩
  | 125 => ⟨S100000, .f32⟩
  | 126 => ⟨S_, .f32⟩
  | 127 => ⟨S512, .f32⟩
  | _ => ⟨S100000x128, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x16, .f32⟩
  | 7 => ⟨S512x16, .f32⟩
  | 8 => ⟨S1x10, .f32⟩
  | 9 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x16, .f32⟩
  | .local _ .vmem, ⟨8, _⟩ => ⟨S10000x16, .f32⟩
  | .local _ .vmem, ⟨9, _⟩ => ⟨S10000x16, .f32⟩
  | .local _ .vmem, ⟨10, _⟩ => ⟨S512x16, .f32⟩
  | .local _ .vmem, ⟨11, _⟩ => ⟨S16x10, .f32⟩
  | .local _ .vmem, ⟨12, _⟩ => ⟨S1x10, .f32⟩
  | .local _ .vmem, ⟨13, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  shapeCasts_S10_S1x10 : S10.ShapeCasts S1x10
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S10000x128_S128x16_S10000x16_1_0_0_1_n_n_wf : DotDims.WF S10000x128 S128x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  dot_S512x16_S16x10_S512x10_1_0_0_1_n_n_wf : DotDims.WF S512x16 S16x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x16.size a ≤ S512x16.size a
  hwx2_0 : ∀ i : grid2.Coords, EltTy.bits .f32 = 32 ∨ (Rect.block (s := S512x16) S512x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x10.size a ≤ S16x10.size a
  hwx2_1 : ∀ i : grid2.Coords, EltTy.bits .f32 = 32 ∨ (Rect.block (s := S16x10) S16x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x10.size a ≤ S512x10.size a
  hwx2_3 : ∀ i : grid2.Coords, EltTy.bits .f32 = 32 ∨ (Rect.block (s := S512x10) S512x10.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v100) S512x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S512x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S16x16, .f32⟩
  | 6 => ⟨S16, .f32⟩
  | 7 => ⟨S16x10, .f32⟩
  | 8 => ⟨S10, .f32⟩
  | 9 => ⟨S1x3200000, .i32⟩
  | 10 => ⟨S3200000, .i32⟩
  | 11 => ⟨S1x3200000, .i32⟩
  | 12 => ⟨S3200000, .i32⟩
  | 13 => ⟨S100000x16, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x16, .f32⟩
  | 55 => ⟨S3300000x1, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S1x16, .f32⟩
  | 63 => ⟨S100000x16, .f32⟩
  | 64 => ⟨S100000x16, .f32⟩
  | 65 => ⟨S_, .f32⟩
  | 66 => ⟨S100000x16, .f32⟩
  | 67 => ⟨S100000x16, .f32⟩
  | 68 => ⟨S100000x16, .f32⟩
  | 69 => ⟨S100000, .i32⟩
  | 70 => ⟨S3300000, .i32⟩
  | 71 => ⟨S3300000, .i32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x16, .f32⟩
  | 110 => ⟨S3300000x1, .f32⟩
  | 111 => ⟨S3300000x16, .f32⟩
  | 112 => ⟨S3300000x16, .f32⟩
  | 113 => ⟨S_, .f32⟩
  | 114 => ⟨S100000x16, .f32⟩
  | 115 => ⟨S3300000x1, .i32⟩
  | 116 => ⟨S100000x16, .f32⟩
  | 117 => ⟨S1x16, .f32⟩
  | 118 => ⟨S100000x16, .f32⟩
  | 119 => ⟨S100000x16, .f32⟩
  | 120 => ⟨S_, .f32⟩
  | 121 => ⟨S512x16, .f32⟩
  | 122 => ⟨S100000x1, .i32⟩
  | 123 => ⟨S512x16, .f32⟩
  | 124 => ⟨S_, .f32⟩
  | 125 => ⟨S100000, .f32⟩
  | 126 => ⟨S_, .f32⟩
  | 127 => ⟨S512, .f32⟩
  | _ => ⟨S100000x128, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x16, .f32⟩
  | 7 => ⟨S512x16, .f32⟩
  | 8 => ⟨S512x10, .f32⟩
  | 9 => ⟨S1x10, .f32⟩
  | 10 => ⟨S512x10, .f32⟩
  | 11 => ⟨S512x10, .f32⟩
  | 12 => ⟨S_, .f32⟩
  | 13 => ⟨S512, .f32⟩
  | 14 => ⟨S_, .f32⟩
  | 15 => ⟨S512, .f32⟩
  | 16 => ⟨S512, .f32⟩
  | 17 => ⟨S512x1, .f32⟩
  | 18 => ⟨S512x10, .f32⟩
  | 19 => ⟨S512x10, .f32⟩
  | 20 => ⟨S512x10, .f32⟩
  | 21 => ⟨S_, .f32⟩
  | 22 => ⟨S512, .f32⟩
  | 23 => ⟨S512x1, .f32⟩
  | 24 => ⟨S512x1, .f32⟩
  | 25 => ⟨S512x10, .f32⟩
  | 26 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_call1_cst : Ref sig .tc := ⟨.hbm, 140, rfl⟩
abbrev main_call1_v0 : Ref sig .tc := ⟨.hbm, 141, rfl⟩
abbrev main_call1_cst_0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_cst_1 : Ref sig .tc := ⟨.hbm, 149, rfl⟩
abbrev main_call1_v7 : Ref sig .tc := ⟨.hbm, 150, rfl⟩
abbrev main_call1_v8 : Ref sig .tc := ⟨.hbm, 151, rfl⟩
abbrev main_call1_v9 : Ref sig .tc := ⟨.hbm, 152, rfl⟩
abbrev main_call1_v10 : Ref sig .tc := ⟨.hbm, 153, rfl⟩
abbrev main_v105 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1
  dot_S512x16_S16x10_S512x10_1_0_0_1_n_n_wf : DotDims.WF S512x16 S16x10 S512x10 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

class Facts : Prop extends Facts₀ where

variable [Facts]
-- ==== Proof.KernelRun.lean ====
/-
  The idealized kernel's run with its last buffer contents kept.

  The program is three kernel regions among four stretches of host operations. The generated frame module names the
  buffer contents at every boundary between them as a fold from the launch memory (after a host stretch: the stretch's
  operations applied in order; after a region: the region's arrays at what its write-backs leave, every other buffer
  as it was), and runs the program through those boundaries; its last boundary's contents are `W7`. Here the same
  run is stated with the whole last reading as its post: every unscoped buffer of every core ends at `W7`. From it
  the result array and the argument arrays are read off in one line each.
-/
import proofs.«104396_j51445118271731_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every unscoped buffer of every core then holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array's buffer is unscoped. -/
theorem result_mem_uc : Proc.devRef .tc main_v102 ∈ Pipeline.ucRefs τ sig := mem_uc main_v102 (by decide)

/-- The run with the result array named: it ends at the last boundary's contents at its buffer, and every argument
    array ends as launched. -/
theorem run_result : θ_run defs (onTc (τ := τ) (main (F := F))) ⟨m, fun _ => 0, ρ⟩ (fun r => ∀ c : Dev nD,
      r.2.mem ((c.tc : Thread nD τ).loc main_v102) = W7 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v102 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩)
    (run_all m ρ)

end Cert.KernelIdeal.RunValue

end
-- ==== Proof.HostGlue.lean ====
/-
  The network both programs compute, as one function of the argument arrays.

  A two-layer graph convolution with mean pooling and a log-softmax head. With N = 100000 nodes, E = 3200000 edges
  (a source row and a target row of node numbers) and one self-loop per node appended to both rows:

  * a layer multiplies the node features by a weight matrix (dense), and then aggregates: the degree of a node is the number
    of edges of the extended list that end at it (a scatter-add of ones), d = 1 / sqrt (max (degree, 1e-12)), every edge
    carries the message  features[source] · d[source] · d[target],  the messages are summed at their target node (a
    scatter-add of rows), and the bias is added to every row. A negative node number in a gather counts from the end
    (compare with 0, add N, select); an out-of-range one is dropped by the scatters.
  * between the layers, max (·, 0).
  * pooling: the rows of the nodes of each of the 512 graphs are summed (scatter-add by graph number) and divided by
    max (number of nodes of the graph, 1).
  * the head: pooled · Wl + bl, then log-softmax along each row, computed as
    s = logits - max(-inf, row maximum),  s - log (sum of exp s).

  The definitions below spell these stages with the host operations of the printed reference program, in its order and
  with its dimension records, over any float instance; the two dense products are kept apart (dense1, dense2, and the one
  inside logits) because they are the only places where the kernel program differs: there a kernel region computes the
  product, and the last region computes the whole head.
-/
import proofs.«104396_j51445118271731_1_alg».proof.Proof.Gen.ReferenceIdeal

noncomputable section

namespace Cert.Glue

open Cert.ReferenceIdeal Cert.ReferenceIdeal.Gen Idealize.ShloMosaic

variable {F : FTy → Type} [FloatOps F]

/-- The edges' source nodes: row 0 of the edge array, as a vector. -/
def edgeSources (e : IVec S2x3200000 32) : IVec S3200000 32 :=
  shapeCast _ (extractStridedSlice S1x3200000 ![0, 0] e slices_S2x3200000_S1x3200000_0_0) shapeCasts_S1x3200000_S3200000

/-- The edges' target nodes: row 1 of the edge array, as a vector. -/
def edgeTargets (e : IVec S2x3200000 32) : IVec S3200000 32 :=
  shapeCast _ (extractStridedSlice S1x3200000 ![1, 0] e slices_S2x3200000_S1x3200000_1_0) shapeCasts_S1x3200000_S3200000

/-- The first layer's dense product, features · W1. -/
def dense1 (x : FVec F S100000x128 .f32) (w : FVec F S128x16 .f32) : FVec F S100000x16 .f32 :=
  Host.dotGeneral dot_S100000x128_S128x16_S100000x16_1_0_0_1_n_n none x w

/-- The second layer's dense product, hidden · W2. -/
def dense2 (x : FVec F S100000x16 .f32) (w : FVec F S16x16 .f32) : FVec F S100000x16 .f32 :=
  Host.dotGeneral dot_S100000x16_S16x16_S100000x16_1_0_0_1_n_n none x w

/-- An end of every edge followed by the self-loops' ends 0, 1, …, N-1. -/
def withSelfLoops (ends : IVec S3200000 32) : IVec S3300000 32 :=
  concatenate S3300000 0 [⟨S3200000, ends⟩, ⟨S100000, iotaInDim S100000 32 0⟩] concatenates_S3200000_S100000_S3300000_d0

/-- Node numbers as a column of gather indices, a negative number counted from the end: i < 0 ? i + N : i. -/
def asRowIndex (i : IVec S3300000 32) : IVec S3300000x1 32 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- d = 1 / sqrt (max (degree, 1e-12)), the degree of a node being the number of extended edges that end at it. -/
def invSqrtDegree (targets : IVec S3300000 32) : FVec F S100000 .f32 :=
  Host.rsqrt (maximumf
    (Host.scatterAdd scatter_S100000_S3300000x1_S3300000_n_0_0_1
      (broadcastInDim S100000 ![] bcast_S_S100000 (constant (F := F) S_ .f32 0x00000000#32))
      (broadcastInDim S3300000x1 ![0] bcast_S3300000_S3300000x1_0 targets)
      (broadcastInDim S3300000 ![] bcast_S_S3300000 (constant (F := F) S_ .f32 0x3F800000#32)))
    (broadcastInDim S100000 ![] bcast_S_S100000 (constant (F := F) S_ .f32 0x2B8CBCCC#32)))

/-- The weight of every extended edge, d[source] · d[target]. -/
def edgeWeights (d : FVec F S100000 .f32) (sources targets : IVec S3300000 32) : FVec F S3300000 .f32 :=
  mulf (Host.gather gather_S100000_S3300000x1_S3300000_n_0_n_n_0_1_1 d (asRowIndex sources))
    (Host.gather gather_S100000_S3300000x1_S3300000_n_0_n_n_0_1_1 d (asRowIndex targets))

/-- The message of every extended edge: its source node's row scaled by the edge's weight. -/
def messages (h : FVec F S100000x16 .f32) (sources : IVec S3300000 32) (wt : FVec F S3300000 .f32) : FVec F S3300000x16 .f32 :=
  mulf (Host.gather gather_S100000x16_S3300000x1_S3300000x16_1_0_n_n_0_1_116 h (asRowIndex sources))
    (broadcastInDim S3300000x16 ![0, 1] bcast_S3300000x1_S3300000x16_0_1 (broadcastInDim S3300000x1 ![0] bcast_S3300000_S3300000x1_0 wt))

/-- The messages summed at their target nodes. -/
def sumAtTargets (msg : FVec F S3300000x16 .f32) (targets : IVec S3300000 32) : FVec F S100000x16 .f32 :=
  Host.scatterAdd scatter_S100000x16_S3300000x1_S3300000x16_1_0_0_1
    (broadcastInDim S100000x16 ![] bcast_S_S100000x16 (constant (F := F) S_ .f32 0x00000000#32))
    (broadcastInDim S3300000x1 ![0] bcast_S3300000_S3300000x1_0 targets) msg

/-- A bias vector added to every row. -/
def addBias (x : FVec F S100000x16 .f32) (b : FVec F S16 .f32) : FVec F S100000x16 .f32 :=
  addf x (broadcastInDim S100000x16 ![0, 1] bcast_S1x16_S100000x16_0_1 (broadcastInDim S1x16 ![1] bcast_S16_S1x16_1 b))

/-- One layer's aggregation of the transformed features `h` over the edges extended by the self-loops. -/
def aggregate (h : FVec F S100000x16 .f32) (src dst : IVec S3200000 32) (b : FVec F S16 .f32) : FVec F S100000x16 .f32 :=
  addBias (sumAtTargets
    (messages h (withSelfLoops src) (edgeWeights (invSqrtDegree (withSelfLoops dst)) (withSelfLoops src) (withSelfLoops dst)))
    (withSelfLoops dst)) b

/-- max (x, 0), entry by entry. -/
def relu (x : FVec F S100000x16 .f32) : FVec F S100000x16 .f32 :=
  maximumf x (broadcastInDim S100000x16 ![] bcast_S_S100000x16 (constant (F := F) S_ .f32 0x00000000#32))

/-- The sum of the node rows of each graph. -/
def graphSums (h : FVec F S100000x16 .f32) (batch : IVec S100000 32) : FVec F S512x16 .f32 :=
  Host.scatterAdd scatter_S512x16_S100000x1_S100000x16_1_0_0_1
    (broadcastInDim S512x16 ![] bcast_S_S512x16 (constant (F := F) S_ .f32 0x00000000#32))
    (broadcastInDim S100000x1 ![0] bcast_S100000_S100000x1_0 batch) h

/-- max (number of nodes of each graph, 1). -/
def graphSizes (batch : IVec S100000 32) : FVec F S512 .f32 :=
  maximumf
    (Host.scatterAdd scatter_S512_S100000x1_S100000_n_0_0_1
      (broadcastInDim S512 ![] bcast_S_S512 (constant (F := F) S_ .f32 0x00000000#32))
      (broadcastInDim S100000x1 ![0] bcast_S100000_S100000x1_0 batch)
      (broadcastInDim S100000 ![] bcast_S_S100000 (constant (F := F) S_ .f32 0x3F800000#32)))
    (broadcastInDim S512 ![] bcast_S_S512 (constant (F := F) S_ .f32 0x3F800000#32))

/-- The mean of the node rows of each graph. -/
def meanPool (h : FVec F S100000x16 .f32) (batch : IVec S100000 32) : FVec F S512x16 .f32 :=
  Host.divf (graphSums h batch)
    (broadcastInDim S512x16 ![0, 1] bcast_S512x1_S512x16_0_1 (broadcastInDim S512x1 ![0] bcast_S512_S512x1_0 (graphSizes (F := F) batch)))

/-- The head's logits: pooled · Wl + bl. -/
def logits (g : FVec F S512x16 .f32) (w : FVec F S16x10 .f32) (b : FVec F S10 .f32) : FVec F S512x10 .f32 :=
  addf (Host.dotGeneral dot_S512x16_S16x10_S512x10_1_0_0_1_n_n none g w)
    (broadcastInDim S512x10 ![0, 1] bcast_S1x10_S512x10_0_1 (broadcastInDim S1x10 ![1] bcast_S10_S1x10_1 b))

/-- The row maximum, not below -inf. -/
def rowMax (x : FVec F S512x10 .f32) : FVec F S512 .f32 :=
  maximumf (broadcastInDim S512 ![] bcast_S_S512 (constant (F := F) S_ .f32 0xFF800000#32))
    (Host.reduce FloatOps.maximumf x (constant (F := F) S_ .f32 0xFF800000#32) reducesTo_S512x10_S512_d1 h_S_)

/-- Every row shifted by its maximum. -/
def shifted (x : FVec F S512x10 .f32) : FVec F S512x10 .f32 :=
  subf x (broadcastInDim S512x10 ![0, 1] bcast_S512x1_S512x10_0_1 (broadcastInDim S512x1 ![0] bcast_S512_S512x1_0 (rowMax x)))

/-- Log-softmax along each row, through the row maximum: s - log (sum of exp s). -/
def logSoftmax (x : FVec F S512x10 .f32) : FVec F S512x10 .f32 :=
  subf (shifted x)
    (broadcastInDim S512x10 ![0, 1] bcast_S512x1_S512x10_0_1
      (Host.log (broadcastInDim S512x1 ![0] bcast_S512_S512x1_0
        (Host.reduceAdd (Host.exp (shifted x)) (constant (F := F) S_ .f32 0x00000000#32) reducesTo_S512x10_S512_d1 h_S_))))

/-- The hidden features after the first layer and the rectifier, given the first dense product. -/
def hidden (p1 : FVec F S100000x16 .f32) (e : IVec S2x3200000 32) (b1 : FVec F S16 .f32) : FVec F S100000x16 .f32 :=
  relu (aggregate p1 (edgeSources e) (edgeTargets e) b1)

/-- The pooled features, given the second dense product. -/
def pooled (p2 : FVec F S100000x16 .f32) (e : IVec S2x3200000 32) (batch : IVec S100000 32) (b2 : FVec F S16 .f32) : FVec F S512x16 .f32 :=
  meanPool (aggregate p2 (edgeSources e) (edgeTargets e) b2) batch

/-- The whole network. -/
def network (x : FVec F S100000x128 .f32) (e : IVec S2x3200000 32) (batch : IVec S100000 32)
    (w1 : FVec F S128x16 .f32) (b1 : FVec F S16 .f32) (w2 : FVec F S16x16 .f32) (b2 : FVec F S16 .f32)
    (wl : FVec F S16x10 .f32) (bl : FVec F S10 .f32) : FVec F S512x10 .f32 :=
  logSoftmax (logits (pooled (dense2 (hidden (dense1 x w1) e b1) w2) e batch b2) wl bl)

end Cert.Glue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.MatmulRegions.lean ====
/-
  The program's two row-tiled matrix products, read as whole arrays over the extended reals.

  Each of the first two kernel regions walks a grid of ten points. Point t takes rows 10000·t … 10000·t + 9999 of the
  left array and the whole right array, multiplies them into a zero accumulator, and writes the 10000 × 16 result to
  the same rows of the output array. Over the extended reals a change of float format is the identity, so the result's
  entry (r, q) is ∑ₖ left(r, k) · right(k, q). The ten row blocks tile the output array, so after the region the output
  array is the product of the two arrays as the region found them: its entry (p, q) is ∑ₖ left(p, k) · right(k, q).
-/
import proofs.«104396_j51445118271731_1_alg».proof.Proof.Gen.KernelIdeal.Frame
import proofs.«104396_j51445118271731_1_alg».proof.Proof.LibPlainDot
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The offsets (0, 0), as the constant zero function. -/
theorem zeros2 : (![0, 0] : Fin 2 → Nat) = fun _ => 0 := funext fun a => by fin_cases a <;> rfl

/-! # The first product: [100000, 128] × [128, 16] -/

/-! ## One point's result, entry by entry -/

/-- Entry (r, q) of a point's result: both operands pass through the format change unchanged, and the product into a
    zero accumulator contracts the left operand's columns with the right operand's rows. -/
theorem product_entry0 (x0 : Vec Ideal S10000x128 .f32) (x1 : Vec Ideal S128x16 .f32) (r : Fin 10000) (q : Fin 16) :
    k0_pay1 x0 x1 (ix2 r q) = ∑ k : Fin 128, x0 (ix2 r k) * x1 (ix2 k q) := by
  unfold k0_pay1
  exact Cert.PlainDot.matmul_zero_apply dot_S10000x128_S128x16_S10000x16_1_0_0_1_n_n rfl rfl rfl rfl rfl rfl none _ _ r q

/-- The same at an index j of the result block, in j's two coordinates. -/
theorem block_entry0 (x0 : Vec Ideal S10000x128 .f32) (x1 : Vec Ideal S128x16 .f32) (j : S10000x16.Idx) :
    k0_pay1 x0 x1 j = ∑ k : Fin 128, x0 (ix2 (j 0) k) * x1 (ix2 k (j 1)) := by
  obtain ⟨r, q, rfl⟩ : ∃ (r : Fin 10000) (q : Fin 16), j = ix2 r q := ⟨j 0, j 1, eq_ix2 j⟩
  exact product_entry0 x0 x1 r q

/-! ## Where each point's blocks sit -/

/-- Over the ten points: the left block's row-block index is the output's, its column-block index is 0; the right
    block is always block (0, 0); the output's column-block index is 0 and its row-block index is at most 9. -/
theorem rowTile_index0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks of the output is some point's. -/
theorem rowTile_onto0 : ∀ q0 : Fin 10, ∃ t : Fin cfg0.N, win0_2.index t = ![q0.val, 0] :=
  (by decide +kernel : ∀ q0 : Fin 10, ∃ t : Fin grid0.N, win0_2.index t = ![q0.val, 0])

/-- The product of a [100000, 128] array and a [128, 16] array: entry i is the sum over k of A(i₀, k) · B(k, i₁). -/
abbrev product0 (A : S100000x128.Idx → EReal) (B : S128x16.Idx → EReal) : S100000x16.Idx → EReal :=
  fun i => ∑ k : Fin 128, A (ix2 (i 0) k) * B (ix2 k (i 1))

theorem product0_apply (A : S100000x128.Idx → EReal) (B : S128x16.Idx → EReal) (p : Fin 100000) (q : Fin 16) :
    product0 A B (ix2 p q) = ∑ k : Fin 128, A (ix2 p k) * B (ix2 k q) := rfl

/-- A point's result at j is the product's entry at i as soon as row j₀ of the left block is row i₀ of A and column
    j₁ of the right block is column i₁ of B. -/
theorem block_product0 (x0 : Vec Ideal S10000x128 .f32) (x1 : Vec Ideal S128x16 .f32)
    (A : S100000x128.Idx → EReal) (B : S128x16.Idx → EReal) (j : S10000x16.Idx) (i : S100000x16.Idx)
    (h0 : ∀ k : Fin 128, x0 (ix2 (j 0) k) = A (ix2 (i 0) k)) (h1 : ∀ k : Fin 128, x1 (ix2 k (j 1)) = B (ix2 k (i 1))) :
    k0_pay1 x0 x1 j = product0 A B i := by
  rw [block_entry0]
  exact Finset.sum_congr rfl fun k _ => by rw [h0, h1]

section Region0
/- The buffer contents when the region is entered. -/
variable (V : (c : Dev nD) → (b : Ref sig .tc) → Buf (Elt Ideal) ((c : Thread nD τ).loc b))

/-- The left block at point t is rows 10000·(t's row block) … of the left array: a block's coordinate is its block
    index times the block's extent plus the coordinate inside the block. -/
theorem left_block0 (c : Dev nD) (t : Fin cfg0.N) (x : S10000x128.Idx) (i : S100000x128.Idx)
    (h0 : (i 0).val = win0_2.index t (0 : Fin 2) * 10000 + (x 0).val) (h1 : (i 1).val = (x 1).val) :
    (iblk0 V c 0 t : Vec Ideal S10000x128 .f32) x = (V c main_arg0 : S100000x128.Idx → EReal) i := by
  obtain ⟨e0, e1, -⟩ := rowTile_index0 t
  unfold iblk0
  rw [View.read_apply]
  show V c main_arg0 _ = V c main_arg0 _
  congr 1
  funext a
  apply Fin.ext
  match a with
  | ⟨0, _⟩ => show win0_0.index t (0 : Fin 2) * 10000 + 1 * (x 0).val = (i 0).val; omega
  | ⟨1, _⟩ => show win0_0.index t (1 : Fin 2) * 128 + 1 * (x 1).val = (i 1).val; omega

/-- The right block at every point is the whole right array. -/
theorem right_block0 (c : Dev nD) (t : Fin cfg0.N) (x : S128x16.Idx) :
    (iblk0 V c 1 t : Vec Ideal S128x16 .f32) x = (V c main_arg3 : S128x16.Idx → EReal) x := by
  obtain ⟨-, -, e2, e3, -⟩ := rowTile_index0 t
  unfold iblk0
  rw [View.read_apply]
  show V c main_arg3 _ = V c main_arg3 _
  congr 1
  funext a
  apply Fin.ext
  match a with
  | ⟨0, _⟩ => show win0_1.index t (0 : Fin 2) * 128 + 1 * (x 0).val = (x 0).val; omega
  | ⟨1, _⟩ => show win0_1.index t (1 : Fin 2) * 16 + 1 * (x 1).val = (x 1).val; omega

/-! ## From the row blocks to the array -/

/-- What point t writes back is block t of the product of the two arrays as the region found them: the body's one
    store fills the staging buffer with the product of the two loaded blocks, the left block's rows are the output
    block's rows of the left array, and the right block is the right array. -/
theorem flushed0 (c : Dev nD) (t : Fin cfg0.N) :
    (dat0 (F := Ideal) V c).flushed 2 t
      = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x16) zeros2]
  obtain ⟨-, -, -, -, e4, -⟩ := rowTile_index0 t
  funext j
  show k0_pay1 (iblk0 V c 0 t) (iblk0 V c 1 t) j
    = product0 (V c main_arg0) (V c main_arg3) (((cfg0.win 2).blk t).view.emb j)
  refine block_product0 _ _ _ _ j _ (fun k => ?_) (fun k => ?_)
  · refine left_block0 V c t _ _ ?_ rfl
    show win0_2.index t (0 : Fin 2) * 10000 + 1 * (j 0).val = win0_2.index t (0 : Fin 2) * 10000 + (j 0).val
    omega
  · refine (right_block0 V c t _).trans (congrArg _ ?_)
    funext a
    apply Fin.ext
    match a with
    | ⟨0, _⟩ => rfl
    | ⟨1, _⟩ => show (j 1).val = win0_2.index t (1 : Fin 2) * 16 + 1 * (j 1).val; omega

/-- An index of the output array is in point t's block iff each coordinate is in the block's range on its axis. -/
theorem mem_rowTile0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v4).slice (win0_2.rect t)).set ↔ _
  rw [View.set_slice_whole, Rect.mem_set_unit]
  exact Iff.rfl

/-- Every index of the output array is in some point's block: row r is in row block r / 10000. -/
theorem rowTile_cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := rowTile_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_rowTile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- THE OUTPUT ARRAY after the region is the product of the left and right arrays as the region found them. -/
theorem region0_array (c : Dev nD) :
    (dat0 (F := Ideal) V c).arrAt 2 cfg0.N = product0 (V c main_arg0) (V c main_arg3) :=
  (dat0 V c).arrAt_eq_of_cover 2 (product0 (V c main_arg0) (V c main_arg3)) (fun t _ => flushed0 V c t) rowTile_cover0

/-- Entry (p, q) of the output array after the region, with the three arrays named: R(p, q) = ∑ₖ A(p, k) · B(k, q). -/
theorem region0_entry (c : Dev nD) (A : S100000x128.Idx → EReal) (B : S128x16.Idx → EReal) (R : S100000x16.Idx → EReal)
    (hA : V c main_arg0 = A) (hB : V c main_arg3 = B) (hR : (dat0 (F := Ideal) V c).arrAt 2 cfg0.N = R)
    (p : Fin 100000) (q : Fin 16) :
    R (ix2 p q) = ∑ k : Fin 128, A (ix2 p k) * B (ix2 k q) := by
  subst hA hB hR
  rw [region0_array]

end Region0

/-! # The second product: [100000, 16] × [16, 16] -/

/-! ## One point's result, entry by entry -/

/-- Entry (r, q) of a point's result: the left operand's cast to its own shape is the identity, both operands pass
    through the format change unchanged, and the product into a zero accumulator contracts the left operand's columns
    with the right operand's rows. -/
theorem product_entry1 (x0 : Vec Ideal S10000x16 .f32) (x1 : Vec Ideal S16x16 .f32) (r : Fin 10000) (q : Fin 16) :
    k1_pay1 x0 x1 (ix2 r q) = ∑ k : Fin 16, x0 (ix2 r k) * x1 (ix2 k q) := by
  unfold k1_pay1
  rw [shapeCast_self]
  exact Cert.PlainDot.matmul_zero_apply dot_S10000x16_S16x16_S10000x16_1_0_0_1_n_n rfl rfl rfl rfl rfl rfl none _ _ r q

/-- The same at an index j of the result block, in j's two coordinates. -/
theorem block_entry1 (x0 : Vec Ideal S10000x16 .f32) (x1 : Vec Ideal S16x16 .f32) (j : S10000x16.Idx) :
    k1_pay1 x0 x1 j = ∑ k : Fin 16, x0 (ix2 (j 0) k) * x1 (ix2 k (j 1)) := by
  obtain ⟨r, q, rfl⟩ : ∃ (r : Fin 10000) (q : Fin 16), j = ix2 r q := ⟨j 0, j 1, eq_ix2 j⟩
  exact product_entry1 x0 x1 r q

/-! ## Where each point's blocks sit -/

/-- Over the ten points: the left block's row-block index is the output's, its column-block index is 0; the right
    block is always block (0, 0); the output's column-block index is 0 and its row-block index is at most 9. -/
theorem rowTile_index1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten row blocks of the output is some point's. -/
theorem rowTile_onto1 : ∀ q0 : Fin 10, ∃ t : Fin cfg1.N, win1_2.index t = ![q0.val, 0] :=
  (by decide +kernel : ∀ q0 : Fin 10, ∃ t : Fin grid1.N, win1_2.index t = ![q0.val, 0])

/-- The product of a [100000, 16] array and a [16, 16] array: entry i is the sum over k of A(i₀, k) · B(k, i₁). -/
abbrev product1 (A : S100000x16.Idx → EReal) (B : S16x16.Idx → EReal) : S100000x16.Idx → EReal :=
  fun i => ∑ k : Fin 16, A (ix2 (i 0) k) * B (ix2 k (i 1))

theorem product1_apply (A : S100000x16.Idx → EReal) (B : S16x16.Idx → EReal) (p : Fin 100000) (q : Fin 16) :
    product1 A B (ix2 p q) = ∑ k : Fin 16, A (ix2 p k) * B (ix2 k q) := rfl

/-- A point's result at j is the product's entry at i as soon as row j₀ of the left block is row i₀ of A and column
    j₁ of the right block is column i₁ of B. -/
theorem block_product1 (x0 : Vec Ideal S10000x16 .f32) (x1 : Vec Ideal S16x16 .f32)
    (A : S100000x16.Idx → EReal) (B : S16x16.Idx → EReal) (j : S10000x16.Idx) (i : S100000x16.Idx)
    (h0 : ∀ k : Fin 16, x0 (ix2 (j 0) k) = A (ix2 (i 0) k)) (h1 : ∀ k : Fin 16, x1 (ix2 k (j 1)) = B (ix2 k (i 1))) :
    k1_pay1 x0 x1 j = product1 A B i := by
  rw [block_entry1]
  exact Finset.sum_congr rfl fun k _ => by rw [h0, h1]

section Region1
/- The buffer contents when the region is entered. -/
variable (V : (c : Dev nD) → (b : Ref sig .tc) → Buf (Elt Ideal) ((c : Thread nD τ).loc b))

/-- The left block at point t is rows 10000·(t's row block) … of the left array: a block's coordinate is its block
    index times the block's extent plus the coordinate inside the block. -/
theorem left_block1 (c : Dev nD) (t : Fin cfg1.N) (x : S10000x16.Idx) (i : S100000x16.Idx)
    (h0 : (i 0).val = win1_2.index t (0 : Fin 2) * 10000 + (x 0).val) (h1 : (i 1).val = (x 1).val) :
    (iblk1 V c 0 t : Vec Ideal S10000x16 .f32) x = (V c main_v46 : S100000x16.Idx → EReal) i := by
  obtain ⟨e0, e1, -⟩ := rowTile_index1 t
  unfold iblk1
  rw [View.read_apply]
  show V c main_v46 _ = V c main_v46 _
  congr 1
  funext a
  apply Fin.ext
  match a with
  | ⟨0, _⟩ => show win1_0.index t (0 : Fin 2) * 10000 + 1 * (x 0).val = (i 0).val; omega
  | ⟨1, _⟩ => show win1_0.index t (1 : Fin 2) * 16 + 1 * (x 1).val = (i 1).val; omega

/-- The right block at every point is the whole right array. -/
theorem right_block1 (c : Dev nD) (t : Fin cfg1.N) (x : S16x16.Idx) :
    (iblk1 V c 1 t : Vec Ideal S16x16 .f32) x = (V c main_arg5 : S16x16.Idx → EReal) x := by
  obtain ⟨-, -, e2, e3, -⟩ := rowTile_index1 t
  unfold iblk1
  rw [View.read_apply]
  show V c main_arg5 _ = V c main_arg5 _
  congr 1
  funext a
  apply Fin.ext
  match a with
  | ⟨0, _⟩ => show win1_1.index t (0 : Fin 2) * 16 + 1 * (x 0).val = (x 0).val; omega
  | ⟨1, _⟩ => show win1_1.index t (1 : Fin 2) * 16 + 1 * (x 1).val = (x 1).val; omega

/-! ## From the row blocks to the array -/

/-- What point t writes back is block t of the product of the two arrays as the region found them: the body's one
    store fills the staging buffer with the product of the two loaded blocks, the left block's rows are the output
    block's rows of the left array, and the right block is the right array. -/
theorem flushed1 (c : Dev nD) (t : Fin cfg1.N) :
    (dat1 (F := Ideal) V c).flushed 2 t
      = ((cfg1.win 2).blk t).view.read (Elt Ideal) (product1 (V c main_v46) (V c main_arg5)) := by
  show (cfg1.win 2).cut (grid1.coords t) ((dat1 V c).after 2 t) = _
  rw [after1_2]
  unfold out1_2
  rw [View.canon_unit_zero zeros2]
  simp only [View.ld_unit_zero (S := S10000x16) zeros2, View.ld_unit_zero (S := S16x16) zeros2]
  obtain ⟨-, -, -, -, e4, -⟩ := rowTile_index1 t
  funext j
  show k1_pay1 (iblk1 V c 0 t) (iblk1 V c 1 t) j
    = product1 (V c main_v46) (V c main_arg5) (((cfg1.win 2).blk t).view.emb j)
  refine block_product1 _ _ _ _ j _ (fun k => ?_) (fun k => ?_)
  · refine left_block1 V c t _ _ ?_ rfl
    show win1_2.index t (0 : Fin 2) * 10000 + 1 * (j 0).val = win1_2.index t (0 : Fin 2) * 10000 + (j 0).val
    omega
  · refine (right_block1 V c t _).trans (congrArg _ ?_)
    funext a
    apply Fin.ext
    match a with
    | ⟨0, _⟩ => rfl
    | ⟨1, _⟩ => show (j 1).val = win1_2.index t (1 : Fin 2) * 16 + 1 * (j 1).val; omega

/-- An index of the output array is in point t's block iff each coordinate is in the block's range on its axis. -/
theorem mem_rowTile1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- Every index of the output array is in some point's block: row r is in row block r / 10000. -/
theorem rowTile_cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := rowTile_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_rowTile1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- THE OUTPUT ARRAY after the region is the product of the left and right arrays as the region found them. -/
theorem region1_array (c : Dev nD) :
    (dat1 (F := Ideal) V c).arrAt 2 cfg1.N = product1 (V c main_v46) (V c main_arg5) :=
  (dat1 V c).arrAt_eq_of_cover 2 (product1 (V c main_v46) (V c main_arg5)) (fun t _ => flushed1 V c t) rowTile_cover1

/-- Entry (p, q) of the output array after the region, with the three arrays named: R(p, q) = ∑ₖ A(p, k) · B(k, q). -/
theorem region1_entry (c : Dev nD) (A : S100000x16.Idx → EReal) (B : S16x16.Idx → EReal) (R : S100000x16.Idx → EReal)
    (hA : V c main_v46 = A) (hB : V c main_arg5 = B) (hR : (dat1 (F := Ideal) V c).arrAt 2 cfg1.N = R)
    (p : Fin 100000) (q : Fin 16) :
    R (ix2 p q) = ∑ k : Fin 16, A (ix2 p k) * B (ix2 k q) := by
  subst hA hB hR
  rw [region1_array]

end Region1

end Cert.KernelIdeal.RegionValue

end
-- ==== Proof.FinalRegion.lean ====
/-
  The last kernel region, read as one array.

  The region's grid has a single point, and each of its four windows (the pooled features [512,16], the head's weight
  matrix [16,10], the bias row [1,10], the result [512,10]) has the block shape of its whole array and an index map that
  is constantly (0, 0). Hence a block is its array, the one point's write-back fills the result array completely, and
  the array after the region is the region's body applied to the three input arrays as the region finds them.
-/
import proofs.«104396_j51445118271731_1_alg».proof.Proof.Gen.KernelIdeal.Frame
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The pair (0, 0) is the constant-zero offset. -/
theorem zero_pair : (![0, 0] : Fin 2 → Nat) = fun _ => 0 := funext fun a => by fin_cases a <;> rfl

/-! ## Every block starts at the array's origin

A block's offset on an axis is its block index times the block size; every index map of this region returns (0, 0)
at every point, so every offset is 0. -/

theorem origin_features (t : Fin cfg2.N) : (fun a => win2_0.index t a * main_v100.ty.shape.size a) = fun _ => 0 :=
  funext fun a => by fin_cases a <;> rfl
theorem origin_weights (t : Fin cfg2.N) : (fun a => win2_1.index t a * main_arg7.ty.shape.size a) = fun _ => 0 :=
  funext fun a => by fin_cases a <;> rfl
theorem origin_bias (t : Fin cfg2.N) : (fun a => win2_2.index t a * main_v101.ty.shape.size a) = fun _ => 0 :=
  funext fun a => by fin_cases a <;> rfl
theorem origin_result (t : Fin cfg2.N) : (fun a => win2_3.index t a * main_v102.ty.shape.size a) = fun _ => 0 :=
  funext fun a => by fin_cases a <;> rfl

/-! ## Each input block is its whole array

A block of the array's own sizes at offset 0 reads the array: entry j of the block is entry 0 + 1 · j of the array. -/

theorem block_features (c : Dev nD) (t : Fin cfg2.N) : iblk2 V c 0 t = V c main_v100 :=
  Memref.read_access_unit_zero (Elt F) main_v100 (origin_features t)
    (fun a => by rw [congrFun (origin_features t) a]; simp) (V c main_v100)
theorem block_weights (c : Dev nD) (t : Fin cfg2.N) : iblk2 V c 1 t = V c main_arg7 :=
  Memref.read_access_unit_zero (Elt F) main_arg7 (origin_weights t)
    (fun a => by rw [congrFun (origin_weights t) a]; simp) (V c main_arg7)
theorem block_bias (c : Dev nD) (t : Fin cfg2.N) : iblk2 V c 2 t = V c main_v101 :=
  Memref.read_access_unit_zero (Elt F) main_v101 (origin_bias t)
    (fun a => by rw [congrFun (origin_bias t) a]; simp) (V c main_v101)

/-- The head of the network applied to the three arrays the region reads, as it finds them: the candidate for the
    result array. It depends on nothing else. -/
abbrev headOf (c : Dev nD) : FVec F S512x10 .f32 :=
  k2_pay1 (F := F) (V c main_v100) (V c main_arg7) (V c main_v101)

/-- What the point writes back is the result block of `headOf`. The body loads its three staging buffers whole
    (offset 0, full sizes), stores once, whole; the buffers hold the input blocks, which are the input arrays; and the
    result window's block, again at offset 0 with the array's sizes, reads `headOf` itself. -/
theorem written_back (c : Dev nD) (t : Fin cfg2.N) :
    (dat2 V c).flushed 3 t = ((cfg2.win 3).blk t).view.read (Elt F) (headOf V c) := by
  show (cfg2.win 3).cut (grid2.coords t) ((dat2 V c).after 3 t) = _
  rw [after2_3]
  unfold out2_3
  rw [View.canon_unit_zero zero_pair]
  simp only [View.ld_unit_zero (S := S512x16) zero_pair, View.ld_unit_zero (S := S16x10) zero_pair,
    View.ld_unit_zero (S := S1x10) zero_pair]
  rw [block_features, block_weights, block_bias]
  exact (Memref.read_access_unit_zero (Elt F) main_v102 (origin_result t)
    (fun a => by rw [congrFun (origin_result t) a]; simp) (headOf V c)).symm

/-- Every index of the [512,10] result lies in the point's block: the block is the rectangle at offset 0 of the
    array's own sizes, which is all of it. -/
theorem in_result_block (t : Fin cfg2.N) (i : S512x10.Idx) : i ∈ ((cfg2.win 3).blk t).view.set := by
  show i ∈ ((View.whole main_v102).slice (win2_3.rect t)).set
  rw [View.set_slice_whole]
  exact View.mem_set_unit_zero (S := S512x10) (origin_result t) _ i

/-- THE RESULT ARRAY AFTER THE REGION is the head applied to the pooled features, the weight matrix and the bias row
    as the region finds them: the single point writes back the whole of it, and its block covers every index. -/
theorem region2_array (c : Dev nD) :
    (dat2 V c).arrAt 3 cfg2.N = k2_pay1 (F := F) (V c main_v100) (V c main_arg7) (V c main_v101) :=
  (dat2 V c).arrAt_eq_of_cover 3 (headOf V c) (fun t _ => written_back V c t)
    fun i => ⟨t2_0, flush2_3 t2_0, in_result_block t2_0 i⟩

end Cert.KernelIdeal.RegionValue

end
-- ==== Proof.DenseProducts.lean ====
/-
  The two dense products, as a kernel region leaves them and as the host's dot_general computes them.

  Over the extended reals both are the plain matrix product: entry (p, q) of either is the sum over k of
  A(p, k) · B(k, q). So the array a row-tiled region leaves in its output is the host's product of the same two arrays.
-/
import proofs.«104396_j51445118271731_1_alg».proof.Proof.MatmulRegions
import proofs.«104396_j51445118271731_1_alg».proof.Proof.HostGlue
import proofs.«104396_j51445118271731_1_alg».proof.Proof.LibPlainDot

noncomputable section

namespace Cert.DenseProducts

open Idealize.ShloMosaic Idealize.ShloMosaic.ValueIdx
open scoped BigOperators

/-- The first product: entry (p, q) of both is the sum over k of A(p, k) · B(k, q). -/
theorem product0_eq_dense1 (A : Cert.KernelIdeal.S100000x128.Idx → EReal) (B : Cert.KernelIdeal.S128x16.Idx → EReal) :
    Cert.KernelIdeal.RegionValue.product0 A B = Cert.Glue.dense1 (F := Ideal) A B := by
  funext i
  obtain ⟨p, q, rfl⟩ : ∃ (p : Fin 100000) (q : Fin 16), i = ix2 p q := ⟨i 0, i 1, eq_ix2 i⟩
  rw [Cert.KernelIdeal.RegionValue.product0_apply]
  unfold Cert.Glue.dense1
  simp only [Host.dotGeneral]
  exact (Cert.PlainDot.dotGeneral_apply Cert.ReferenceIdeal.dot_S100000x128_S128x16_S100000x16_1_0_0_1_n_n rfl rfl rfl rfl rfl rfl _ _ A B p q).symm

/-- The second product, likewise. -/
theorem product1_eq_dense2 (A : Cert.KernelIdeal.S100000x16.Idx → EReal) (B : Cert.KernelIdeal.S16x16.Idx → EReal) :
    Cert.KernelIdeal.RegionValue.product1 A B = Cert.Glue.dense2 (F := Ideal) A B := by
  funext i
  obtain ⟨p, q, rfl⟩ : ∃ (p : Fin 100000) (q : Fin 16), i = ix2 p q := ⟨i 0, i 1, eq_ix2 i⟩
  rw [Cert.KernelIdeal.RegionValue.product1_apply]
  unfold Cert.Glue.dense2
  simp only [Host.dotGeneral]
  exact (Cert.PlainDot.dotGeneral_apply Cert.ReferenceIdeal.dot_S100000x16_S16x16_S100000x16_1_0_0_1_n_n rfl rfl rfl rfl rfl rfl _ _ A B p q).symm

end Cert.DenseProducts

end
-- ==== Proof.HeadValue.lean ====
/-
  The head of the network, computed by the last kernel region and by the reference's host operations, is one function
  of the pooled features g [512,16], the weight matrix W [16,10] and the bias vector b [10], over the extended reals.

  Both programs form the logits  x(p, q) = sum over k of g(p, k) · W(k, q) + b(q)  and then, row by row,
      M(p) = max (-inf, max over q of x(p, q)),   s(p, q) = x(p, q) - M(p),   result(p, q) = s(p, q) - log (sum over q' of exp s(p, q')).
  They differ only in how the steps are spelt. The kernel multiplies into a zero accumulator and changes the operands'
  float format first (the identity on extended reals); it lays the bias, reshaped to one row, over the 512 rows, where the
  host broadcasts the vector to a row and the row to the matrix. It turns the vector of row values (maxima, log-sums)
  into a column by a reshape and spreads the column by a broadcast, where the host broadcasts twice. Its reductions
  carry an accumulator (-inf for the maximum, 0 for the sum), the host's an initial value of the same worth. Each
  difference is removed below by one lemma saying the two spellings are one vector; after that the two terms coincide.
-/
import proofs.«104396_j51445118271731_1_alg».proof.Proof.Gen.KernelIdeal.Skeleton
import proofs.«104396_j51445118271731_1_alg».proof.Proof.HostGlue
import proofs.«104396_j51445118271731_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.HeadValue

open Idealize.ShloMosaic Idealize.ShloMosaic.ValueIdx
open scoped BigOperators

/-! ## A vector of row values as a column, and the column spread over the columns of a matrix

For a vector m of a entries: the column has entry (p, 0) = m(p), and the a-by-b matrix has entry (p, q) = m(p). -/

section Layout
variable {α : Type}

/-- A vector of a entries reshaped to an a-by-1 column: entry (p, u) is entry p (row-major position p · 1 + 0 = p). -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- The same column by a broadcast along axis 0 into [a, 1]: entry (p, u) is entry p. (When a = 1 the broadcast reads
    coordinate 0, which is then the only p.) -/
theorem broadcastInDim_col_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- So the reshape and the broadcast build one column. -/
theorem shapeCast_col_eq_broadcastInDim {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_col_apply, broadcastInDim_col_apply]

/-- A column spread over b columns by a trailing-axes broadcast: entry (p, q) is the column's entry (p, 0). -/
theorem broadcastTo_spread_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same by a broadcast that names both axes. -/
theorem broadcastInDim_spread_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- So the two broadcasts spread a column the same way. -/
theorem broadcastTo_spread_eq_broadcastInDim {a b : ℕ} (v : (⟨2, ![a, 1]⟩ : Shape).Idx → α)
    (h : (⟨2, ![a, 1]⟩ : Shape).Broadcasts ⟨2, ![a, b]⟩) (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext i
  obtain ⟨p, q, rfl⟩ : ∃ (p : Fin a) (q : Fin b), i = ix2 p q := ⟨i 0, i 1, eq_ix2 i⟩
  rw [broadcastTo_spread_apply, broadcastInDim_spread_apply]

/-- A vector of n entries broadcast along axis 1 into one row: entry (u, q) is entry q. -/
theorem broadcastInDim_row_apply {n : ℕ} (x : (⟨1, ![n]⟩ : Shape).Idx → α)
    (h : (⟨1, ![n]⟩ : Shape).BroadcastsInDim ⟨2, ![1, n]⟩ ![1]) (u : Fin 1) (q : Fin n) :
    broadcastInDim ⟨2, ![1, n]⟩ ![1] h x (ix2 u q) = x (ix1 q) := by
  refine broadcastInDim_apply ![1] h x (ix2 u q) (ix1 q) fun ax => ?_
  match ax with
  | ⟨0, _⟩ =>
    show q.val = if n = 1 then 0 else q.val
    split
    · have := q.isLt; omega
    · rfl

end Layout

/-! ## The maximum along one axis, and the two transcendental functions -/

section Reductions
variable {s t u : Shape} {φ : FTy} {a : Fin s.rank}

/-- The maximum over one axis. One program folds max from its accumulator's value, the other from its initial value,
    each in its own order; max of extended reals is commutative and associative, so each is the fold over that axis's
    coordinates, and the two start from the same value (`h0`). No finiteness is used. -/
theorem rowMax_eq (x : FVec Ideal s φ) (acc : BitVec φ.bits) (h : s.Reduces [a] t) (hφ : FKind.Formats φ)
    (hacc : acc = FKind.maximumf.neutral φ hφ) (init : u.Idx → Ideal φ) (h' : s.ReducesTo [a] t) (hu : 0 < u.numel)
    (h0 : init (Shape.Idx.first hu) = FloatOps.ofBits φ acc) :
    multiReduction .maximumf [a] t x acc h hφ hacc = Host.reduce FloatOps.maximumf x init h' hu := by
  funext j
  rw [Ideal.multiReduction_maximumf_single, Host.reduce_eq_fold_single FloatOps.maximumf x init h' h hu, h0]
  rfl

/-- Exponential and logarithm are the same functions of an extended real in both programs. -/
theorem exp_eq_hostExp (y : FVec Ideal s φ) : exp y = Host.exp y := rfl
theorem log_eq_hostLog (y : FVec Ideal s φ) : log y = Host.log y := rfl

end Reductions

/-! ## The logits -/

/-- x(p, q) = sum over k of g(p, k) · W(k, q) + b(q) in both programs. The product: each side is that sum over the 16
    values of k (the plain-product lemmas), the kernel's operands being g and W themselves behind an identity reshape
    and a format change. The bias: the kernel reads row 0 of the one-row reshape of b, twice reshaped, at column q; the
    host reads the broadcast row at (0, q); both are b(q). -/
theorem logits_eq (g : FVec Ideal Cert.KernelIdeal.S512x16 .f32) (w : FVec Ideal Cert.KernelIdeal.S16x10 .f32)
    (b : FVec Ideal Cert.KernelIdeal.S10 .f32)
    (h1 : Cert.KernelIdeal.S512x16.ShapeCasts Cert.KernelIdeal.S512x16) (h2 : FTy.bits .bf16 < FTy.bits .f32)
    (h3 : Cert.KernelIdeal.S10.ShapeCasts Cert.KernelIdeal.S1x10) (h4 : Cert.KernelIdeal.S1x10.ShapeCasts Cert.KernelIdeal.S1x10)
    (h5 : Cert.KernelIdeal.S1x10.Broadcasts Cert.KernelIdeal.S512x10) :
    addf (matmul Cert.KernelIdeal.dot_S512x16_S16x10_S512x10_1_0_0_1_n_n none
          (truncf .bf16 (shapeCast Cert.KernelIdeal.S512x16 g h1) h2) (truncf .bf16 w h2)
          (constant Cert.KernelIdeal.S512x10 .f32 0x00000000#32))
        (broadcastTo Cert.KernelIdeal.S512x10 (shapeCast Cert.KernelIdeal.S1x10 (shapeCast Cert.KernelIdeal.S1x10 b h3) h4) h5)
      = Cert.Glue.logits (F := Ideal) g w b := by
  funext i
  obtain ⟨p, q, rfl⟩ : ∃ (p : Fin 512) (q : Fin 10), i = ix2 p q := ⟨i 0, i 1, eq_ix2 i⟩
  unfold Cert.Glue.logits
  rw [addf_apply, addf_apply]
  congr 1
  · refine (Cert.PlainDot.matmul_zero_apply Cert.KernelIdeal.dot_S512x16_S16x10_S512x10_1_0_0_1_n_n rfl rfl rfl rfl rfl rfl
      none _ _ p q).trans ?_
    refine Eq.trans ?_ (Cert.PlainDot.dotGeneral_apply Cert.ReferenceIdeal.dot_S512x16_S16x10_S512x10_1_0_0_1_n_n rfl rfl rfl rfl rfl rfl
      none _ g w p q).symm
    simp only [truncf_apply, shapeCast_self]
  · rw [shapeCast_self, broadcastTo_1b_ab_apply, shapeCast_a_1a_apply, broadcastInDim_oneRow_apply, broadcastInDim_row_apply]

/-! ## The head -/

/-- THE HEAD: the kernel region's body applied to g, W and the bias reshaped to a row is the reference's log-softmax of
    its logits. With the logits equal (`logits_eq`) and named x, the rest is the same term on both sides once the row
    maximum (`rowMax_eq`, both from -inf), the constant -inf vector, the two columns and their spreading
    (`shapeCast_col_eq_broadcastInDim`, `broadcastTo_spread_eq_broadcastInDim`), exp and log, and the row sum (the
    kernel's from accumulator 0, the host's from initial value 0, and 0 + S = S) are read the host's way. -/
theorem head_eq (g : FVec Ideal Cert.KernelIdeal.S512x16 .f32) (w : FVec Ideal Cert.KernelIdeal.S16x10 .f32)
    (b : FVec Ideal Cert.KernelIdeal.S10 .f32) (hb : Cert.KernelIdeal.S10.ShapeCasts Cert.KernelIdeal.S1x10) :
    Cert.KernelIdeal.Gen.k2_pay1 (F := Ideal) g w (shapeCast Cert.KernelIdeal.S1x10 b hb)
      = Cert.Glue.logSoftmax (F := Ideal) (Cert.Glue.logits (F := Ideal) g w b) := by
  unfold Cert.KernelIdeal.Gen.k2_pay1
  dsimp only
  rw [logits_eq g w b]
  generalize Cert.Glue.logits (F := Ideal) g w b = x
  unfold Cert.Glue.logSoftmax Cert.Glue.shifted Cert.Glue.rowMax
  erw [rowMax_eq x _ _ _ _ (constant (F := Ideal) Cert.ReferenceIdeal.S_ .f32 0xFF800000#32)
    Cert.ReferenceIdeal.Gen.reducesTo_S512x10_S512_d1 Cert.ReferenceIdeal.Gen.h_S_ rfl]
  rw [broadcastInDim_constant]
  simp only [shapeCast_col_eq_broadcastInDim _ _ Cert.ReferenceIdeal.Gen.bcast_S512_S512x1_0,
    broadcastTo_spread_eq_broadcastInDim _ _ Cert.ReferenceIdeal.Gen.bcast_S512x1_S512x10_0_1,
    exp_eq_hostExp, log_eq_hostLog]
  erw [multiReduction_add_eq_hostReduceAdd _ _ _ _ _ (constant (F := Ideal) Cert.ReferenceIdeal.S_ .f32 0x00000000#32)
    Cert.ReferenceIdeal.Gen.reducesTo_S512x10_S512_d1 Cert.ReferenceIdeal.Gen.h_S_ Ideal.ofBits_zero_f32]

end Cert.HeadValue

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.KernelValue.lean ====
/-
  What the idealized kernel program's result array holds after the run: the network of the argument arrays.

  The program's buffer contents are followed from the launch through its seven segments (the generated frame module's
  fold W0 … W7). A host stretch applies its operations in order, so a buffer it writes holds the composed operations of
  what the stretch found, and a buffer it does not write is unchanged. A kernel region leaves its output array at what
  its write-backs assemble (the region modules: a row-tiled matrix product for regions 0 and 1, the whole head for
  region 2) and every other buffer unchanged. Read backwards from the result array this gives, stage by stage, the
  stages of HostGlue applied to the launch contents of the arguments, with the dense products where the regions stand
  (DenseProducts) and the head where the last region stands (HeadValue).
-/
import proofs.«104396_j51445118271731_1_alg».proof.Proof.Gen.KernelIdeal.Frame
import proofs.«104396_j51445118271731_1_alg».proof.Proof.HostGlue
import proofs.«104396_j51445118271731_1_alg».proof.Proof.MatmulRegions
import proofs.«104396_j51445118271731_1_alg».proof.Proof.FinalRegion
import proofs.«104396_j51445118271731_1_alg».proof.Proof.DenseProducts
import proofs.«104396_j51445118271731_1_alg».proof.Proof.HeadValue
import proofs.«104396_j51445118271731_1_alg».proof.Proof.LibHostFold
import Idealize.ShloMosaic.Lib.StableHlo.Run

set_option maxRecDepth 16384

noncomputable section

namespace Cert.KernelIdeal.FoldValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Reading a host stretch

The contents of one buffer after a stretch are computed by rewriting each operation's result at its own buffer to its
function's value and at any other buffer to what was there. The two-piece concatenation (edge ends followed by the
self-loops' ends) keeps its pieces inside a list of pairs, where a rewrite does not reach; `joined` is the same
concatenation with its pieces as plain arguments. -/

/-- The concatenation of a vector of E entries and a vector of N entries. -/
def joined (a : IVec S3200000 32) (b : IVec S100000 32) : IVec S3300000 32 :=
  concatenate S3300000 0 [⟨S3200000, a⟩, ⟨S100000, b⟩] concatenates_S3200000_S100000_S3300000_d0

theorem joined_eq (a : IVec S3200000 32) (b : IVec S100000 32) (h : Shape.Concatenates [S3200000, S100000] S3300000 0) :
    concatenate S3300000 0 [⟨S3200000, a⟩, ⟨S100000, b⟩] h = joined a b := rfl

/-- One buffer's contents after a stretch of host operations, as the composed operations of what the stretch found. -/
macro "read_stretch" : tactic =>
  `(tactic| simp (disch := decide) only [joined_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## Before region 0: the first stretch slices the edge array -/

theorem W1_arg0 : W1 m ρ c (Proc.devRef .tc main_arg0) = m ((c : Thread nD τ).loc main_arg0) := by
  show StableHlo.after hostOps0 (W0 m ρ c) (Proc.devRef .tc main_arg0) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_v1 : W1 m ρ c (Proc.devRef .tc main_v1) = Cert.Glue.edgeSources (m ((c : Thread nD τ).loc main_arg1)) := by
  show StableHlo.after hostOps0 (W0 m ρ c) (Proc.devRef .tc main_v1) = _
  after_results
  rfl
theorem W1_v3 : W1 m ρ c (Proc.devRef .tc main_v3) = Cert.Glue.edgeTargets (m ((c : Thread nD τ).loc main_arg1)) := by
  show StableHlo.after hostOps0 (W0 m ρ c) (Proc.devRef .tc main_v3) = _
  after_results
  rfl

/-! ## After region 0: its output array is the first dense product -/

theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_v1 : W2 m ρ c (Proc.devRef .tc main_v1) = Cert.Glue.edgeSources (m ((c : Thread nD τ).loc main_arg1)) :=
  (W2_of_ne m ρ c main_v1 (by decide)).trans (W1_v1 m ρ c)
theorem W2_v3 : W2 m ρ c (Proc.devRef .tc main_v3) = Cert.Glue.edgeTargets (m ((c : Thread nD τ).loc main_arg1)) :=
  (W2_of_ne m ρ c main_v3 (by decide)).trans (W1_v3 m ρ c)
theorem W2_v4 : W2 m ρ c (Proc.devRef .tc main_v4) = Cert.Glue.dense1 (F := Ideal) (m ((c : Thread nD τ).loc main_arg0)) (m ((c : Thread nD τ).loc main_arg3)) := by
  refine (W2_arr m ρ c 2).trans ?_
  rw [Cert.KernelIdeal.RegionValue.region0_array (V1 m ρ) c]
  show Cert.KernelIdeal.RegionValue.product0 (W1 m ρ c (Proc.devRef .tc main_arg0)) (W1 m ρ c (Proc.devRef .tc main_arg3)) = _
  rw [W1_arg0, W1_arg3]
  exact Cert.DenseProducts.product0_eq_dense1 _ _

/-! ## Before region 1: the first aggregation and the rectifier -/

theorem W3_v45 : W3 m ρ c (Proc.devRef .tc main_v45)
    = Cert.Glue.aggregate (F := Ideal) (Cert.Glue.dense1 (F := Ideal) (m ((c : Thread nD τ).loc main_arg0)) (m ((c : Thread nD τ).loc main_arg3)))
        (Cert.Glue.edgeSources (m ((c : Thread nD τ).loc main_arg1))) (Cert.Glue.edgeTargets (m ((c : Thread nD τ).loc main_arg1))) (m ((c : Thread nD τ).loc main_arg4)) := by
  have raw : StableHlo.after hostOps1 (W2 m ρ c) (Proc.devRef .tc main_v45)
      = Cert.Glue.aggregate (F := Ideal) (W2 m ρ c (Proc.devRef .tc main_v4)) (W2 m ρ c (Proc.devRef .tc main_v1))
          (W2 m ρ c (Proc.devRef .tc main_v3)) (W2 m ρ c (Proc.devRef .tc main_arg4)) := by
    read_stretch
    rfl
  refine raw.trans ?_
  rw [W2_v4, W2_v1, W2_v3, W2_arg4]

/-- The rectifier's three operations, from any contents: the buffer of its result holds max (·, 0) of its operand's.
    (The operations of the inlined call carry their operands through transports between a buffer's declared type and
    the value's type; these are identities and are removed before the two sides are compared.) -/
theorem relu_stage (X : Valuation τ sig (Elt Ideal)) :
    StableHlo.after hostOps1_1 X (Proc.devRef .tc main_v46) = Cert.Glue.relu (F := Ideal) (X (Proc.devRef .tc main_v45)) := by
  read_stretch
  simp only [Cert.HostFold.ofBuf_toBuf]
  refine Cert.HostFold.toBuf_eq _ _ _ (heq_of_eq ?_)
  unfold Cert.Glue.relu
  exact congrArg (fun z => maximumf z _) (Cert.HostFold.ofBuf_eq _ _ _ HEq.rfl)

theorem W4_v46 : W4 m ρ c (Proc.devRef .tc main_v46)
    = Cert.Glue.hidden (F := Ideal) (Cert.Glue.dense1 (F := Ideal) (m ((c : Thread nD τ).loc main_arg0)) (m ((c : Thread nD τ).loc main_arg3))) (m ((c : Thread nD τ).loc main_arg1)) (m ((c : Thread nD τ).loc main_arg4)) := by
  show StableHlo.after hostOps1_1 (W3 m ρ c) (Proc.devRef .tc main_v46) = _
  rw [relu_stage, W3_v45]
  rfl
theorem W4_arg2 : W4 m ρ c (Proc.devRef .tc main_arg2) = m ((c : Thread nD τ).loc main_arg2) := by
  show StableHlo.after hostOps1_1 (StableHlo.after hostOps1 (W2 m ρ c)) (Proc.devRef .tc main_arg2) = _
  read_stretch
  exact W2_arg2 m ρ c
theorem W4_arg5 : W4 m ρ c (Proc.devRef .tc main_arg5) = m ((c : Thread nD τ).loc main_arg5) := by
  show StableHlo.after hostOps1_1 (StableHlo.after hostOps1 (W2 m ρ c)) (Proc.devRef .tc main_arg5) = _
  read_stretch
  exact W2_arg5 m ρ c
theorem W4_arg6 : W4 m ρ c (Proc.devRef .tc main_arg6) = m ((c : Thread nD τ).loc main_arg6) := by
  show StableHlo.after hostOps1_1 (StableHlo.after hostOps1 (W2 m ρ c)) (Proc.devRef .tc main_arg6) = _
  read_stretch
  exact W2_arg6 m ρ c
theorem W4_arg7 : W4 m ρ c (Proc.devRef .tc main_arg7) = m ((c : Thread nD τ).loc main_arg7) := by
  show StableHlo.after hostOps1_1 (StableHlo.after hostOps1 (W2 m ρ c)) (Proc.devRef .tc main_arg7) = _
  read_stretch
  exact W2_arg7 m ρ c
theorem W4_arg8 : W4 m ρ c (Proc.devRef .tc main_arg8) = m ((c : Thread nD τ).loc main_arg8) := by
  show StableHlo.after hostOps1_1 (StableHlo.after hostOps1 (W2 m ρ c)) (Proc.devRef .tc main_arg8) = _
  read_stretch
  exact W2_arg8 m ρ c
theorem W4_v1 : W4 m ρ c (Proc.devRef .tc main_v1) = Cert.Glue.edgeSources (m ((c : Thread nD τ).loc main_arg1)) := by
  show StableHlo.after hostOps1_1 (StableHlo.after hostOps1 (W2 m ρ c)) (Proc.devRef .tc main_v1) = _
  read_stretch
  exact W2_v1 m ρ c
theorem W4_v3 : W4 m ρ c (Proc.devRef .tc main_v3) = Cert.Glue.edgeTargets (m ((c : Thread nD τ).loc main_arg1)) := by
  show StableHlo.after hostOps1_1 (StableHlo.after hostOps1 (W2 m ρ c)) (Proc.devRef .tc main_v3) = _
  read_stretch
  exact W2_v3 m ρ c

/-! ## After region 1: its output array is the second dense product -/

theorem W5_arg2 : W5 m ρ c (Proc.devRef .tc main_arg2) = m ((c : Thread nD τ).loc main_arg2) :=
  (W5_of_ne m ρ c main_arg2 (by decide)).trans (W4_arg2 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W5_v1 : W5 m ρ c (Proc.devRef .tc main_v1) = Cert.Glue.edgeSources (m ((c : Thread nD τ).loc main_arg1)) :=
  (W5_of_ne m ρ c main_v1 (by decide)).trans (W4_v1 m ρ c)
theorem W5_v3 : W5 m ρ c (Proc.devRef .tc main_v3) = Cert.Glue.edgeTargets (m ((c : Thread nD τ).loc main_arg1)) :=
  (W5_of_ne m ρ c main_v3 (by decide)).trans (W4_v3 m ρ c)
theorem W5_v47 : W5 m ρ c (Proc.devRef .tc main_v47)
    = Cert.Glue.dense2 (F := Ideal) (Cert.Glue.hidden (F := Ideal) (Cert.Glue.dense1 (F := Ideal) (m ((c : Thread nD τ).loc main_arg0)) (m ((c : Thread nD τ).loc main_arg3))) (m ((c : Thread nD τ).loc main_arg1)) (m ((c : Thread nD τ).loc main_arg4))) (m ((c : Thread nD τ).loc main_arg5)) := by
  refine (W5_arr m ρ c 2).trans ?_
  rw [Cert.KernelIdeal.RegionValue.region1_array (V4 m ρ) c]
  show Cert.KernelIdeal.RegionValue.product1 (W4 m ρ c (Proc.devRef .tc main_v46)) (W4 m ρ c (Proc.devRef .tc main_arg5)) = _
  rw [W4_v46, W4_arg5]
  exact Cert.DenseProducts.product1_eq_dense2 _ _

/-! ## Before region 2: the second aggregation, the pooling, and the bias as a row -/

theorem W6_v100 : W6 m ρ c (Proc.devRef .tc main_v100)
    = Cert.Glue.pooled (F := Ideal) (Cert.Glue.dense2 (F := Ideal) (Cert.Glue.hidden (F := Ideal) (Cert.Glue.dense1 (F := Ideal) (m ((c : Thread nD τ).loc main_arg0)) (m ((c : Thread nD τ).loc main_arg3))) (m ((c : Thread nD τ).loc main_arg1)) (m ((c : Thread nD τ).loc main_arg4))) (m ((c : Thread nD τ).loc main_arg5)))
        (m ((c : Thread nD τ).loc main_arg1)) (m ((c : Thread nD τ).loc main_arg2)) (m ((c : Thread nD τ).loc main_arg6)) := by
  have raw : StableHlo.after hostOps2 (W5 m ρ c) (Proc.devRef .tc main_v100)
      = Cert.Glue.meanPool (F := Ideal) (Cert.Glue.aggregate (F := Ideal) (W5 m ρ c (Proc.devRef .tc main_v47)) (W5 m ρ c (Proc.devRef .tc main_v1))
          (W5 m ρ c (Proc.devRef .tc main_v3)) (W5 m ρ c (Proc.devRef .tc main_arg6))) (W5 m ρ c (Proc.devRef .tc main_arg2)) := by
    read_stretch
    rfl
  refine raw.trans ?_
  rw [W5_v47, W5_v1, W5_v3, W5_arg6, W5_arg2]
  rfl
theorem W6_v101 : W6 m ρ c (Proc.devRef .tc main_v101) = shapeCast S1x10 (m ((c : Thread nD τ).loc main_arg8)) shapeCasts_S10_S1x10 := by
  have raw : StableHlo.after hostOps2 (W5 m ρ c) (Proc.devRef .tc main_v101)
      = shapeCast S1x10 (W5 m ρ c (Proc.devRef .tc main_arg8)) shapeCasts_S10_S1x10 := by
    read_stretch
    rfl
  refine raw.trans ?_
  rw [W5_arg8]
theorem W6_arg7 : W6 m ρ c (Proc.devRef .tc main_arg7) = m ((c : Thread nD τ).loc main_arg7) := by
  show StableHlo.after hostOps2 (W5 m ρ c) (Proc.devRef .tc main_arg7) = _
  read_stretch
  exact W5_arg7 m ρ c

/-! ## After region 2: the result array -/

/-- The result array ends at the network of the arguments' launch contents. -/
theorem result_eq_network : W7 m ρ c (Proc.devRef .tc main_v102)
    = Cert.Glue.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 3).trans ?_
  rw [Cert.KernelIdeal.RegionValue.region2_array (F := Ideal) (V6 m ρ) c]
  show k2_pay1 (F := Ideal) (W6 m ρ c (Proc.devRef .tc main_v100)) (W6 m ρ c (Proc.devRef .tc main_arg7)) (W6 m ρ c (Proc.devRef .tc main_v101)) = _
  rw [W6_v100, W6_arg7, W6_v101]
  exact Cert.HeadValue.head_eq _ _ _ _

end Cert.KernelIdeal.FoldValue

end
-- ==== Proof.ReferenceValue.lean ====
/-
  The reference program's result is the network of its argument arrays.

  The generated run of the reference states its result as the composition of its host operations applied to the
  launch contents of the arguments; stage by stage that composition is the network of HostGlue: the same operations in
  the same order, so the two terms agree by unfolding the stages' definitions.
-/
import proofs.«104396_j51445118271731_1_alg».proof.Proof.Gen.ReferenceIdeal.Run
import proofs.«104396_j51445118271731_1_alg».proof.Proof.HostGlue

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 4000000 in
/-- The reference's result term is the network of the arguments' launch contents. -/
theorem result_eq_network (m : (ℓ : Loc nD τ sig) → Buf (Elt F) ℓ) (c : Dev nD) :
    Cert.ReferenceIdeal.Value.res_main_v105 m c
      = Cert.Glue.network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.Value.res_main_v105
  rfl

end Cert.ReferenceIdeal.RefValue

end
-- ==== Proof.lean ====
/-
  The certificate of a two-layer graph convolution with mean pooling and a log-softmax head.

  The kernel program computes the two dense products of the layers (node features times a weight matrix) in kernel
  regions tiled over ten blocks of 10000 rows, and the whole head (pooled features times the last weight matrix, plus
  the bias, then log-softmax along each row) in a third region of one block; every other operation — slicing the edge
  list, appending the self-loops, the degree normalisation, the gathers and scatter-adds of the aggregation, the
  rectifier, the mean pooling — is the same host operation in both programs, in the same order.

  At the extended reals the three differences vanish without any hypothesis on the inputs:
  * a change of float format is the identity, so the casts to bf16 before a product do nothing;
  * a matrix product on the matrix unit into a zero accumulator and the host's dot_general are the same sum over the
    contracted index of products of entries, and an array assembled from row blocks of such products is the product of
    the whole arrays (MatmulRegions, DenseProducts);
  * the head in the last region applies, entry by entry, the operations of the reference's head: the same logits, the
    same row maximum and row sum of exponentials, the same logarithm (FinalRegion, HeadValue).
  So both programs end with the network of HostGlue applied to the argument arrays: the reference by its generated run
  (ReferenceValue), the kernel program by following its buffers through its segments (KernelRun, KernelValue).
  The frames are the generated ones (the reference's is its generated run with the result dropped); the idealization
  rewrote no operation, so there is nothing to preserve.
-/
import proofs.«104396_j51445118271731_1_alg».proof.Defs
import proofs.«104396_j51445118271731_1_alg».proof.Proof.Gen.Kernel
import proofs.«104396_j51445118271731_1_alg».proof.Proof.Gen.Kernel.Skeleton
import proofs.«104396_j51445118271731_1_alg».proof.Proof.Gen.Kernel.Launch
import proofs.«104396_j51445118271731_1_alg».proof.Proof.Gen.Kernel.Points
import proofs.«104396_j51445118271731_1_alg».proof.Proof.Gen.Kernel.Frame
import proofs.«104396_j51445118271731_1_alg».proof.Proof.Gen.KernelIdeal
import proofs.«104396_j51445118271731_1_alg».proof.Proof.Gen.KernelIdeal.Skeleton
import proofs.«104396_j51445118271731_1_alg».proof.Proof.Gen.KernelIdeal.Launch
import proofs.«104396_j51445118271731_1_alg».proof.Proof.Gen.KernelIdeal.Points
import proofs.«104396_j51445118271731_1_alg».proof.Proof.Gen.KernelIdeal.Frame
import proofs.«104396_j51445118271731_1_alg».proof.Proof.Gen.ReferenceIdeal
import proofs.«104396_j51445118271731_1_alg».proof.Proof.Gen.ReferenceIdeal.Run
import proofs.«104396_j51445118271731_1_alg».proof.Proof.Gen.ReferenceIdeal.Read
import proofs.«104396_j51445118271731_1_alg».proof.Proof.Gen.Pre_finite_inputs
import proofs.«104396_j51445118271731_1_alg».proof.Proof.KernelRun
import proofs.«104396_j51445118271731_1_alg».proof.Proof.KernelValue
import proofs.«104396_j51445118271731_1_alg».proof.Proof.ReferenceValue
import Idealize.ShloMosaic.Adequacy
import Idealize.ShloMosaic.Init

noncomputable section

namespace Cert.Proof

open Idealize.ShloMosaic Idealize.SL.Sem

/-- The printed kernel program runs, faults nowhere and leaves its arguments as launched: the generated frame. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference runs and leaves its arguments as launched: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network of the arguments in their
    result arrays: the kernel program by its run read through its segments, the reference by its generated run. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.FoldValue.result_eq_network m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq_network, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
